-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S4096x2048 : Shape := ⟨2, ![4096, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_

variable [Facts]

def fn {F : FTy → Type} [FloatOps F] (main_arg0 : FVec F S8192x2048 .f32) (main_arg1 : IVec S8192 32) (main_arg2 : FVec F S4096x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg2
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  main_v8
-- ==== Kernel.lean ====
abbrev S8192x2048 : Shape := ⟨2, ![8192, 2048]⟩
abbrev S8192 : Shape := ⟨1, ![8192]⟩
abbrev S4096x2048 : Shape := ⟨2, ![4096, 2048]⟩
abbrev S8192x1 : Shape := ⟨2, ![8192, 1]⟩
abbrev S512x2048 : Shape := ⟨2, ![512, 2048]⟩
abbrev S512x1 : Shape := ⟨2, ![512, 1]⟩
abbrev S2048x512 : Shape := ⟨2, ![2048, 512]⟩
abbrev S512x512 : Shape := ⟨2, ![512, 512]⟩
abbrev S512 : Shape := ⟨1, ![512]⟩
abbrev S1x512 : Shape := ⟨2, ![1, 512]⟩
abbrev S_ : Shape := ⟨0, ![]⟩

abbrev nBuf : Space → Nat
  | .hbm => 9
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S4096x2048, .f32⟩
  | .hbm, ⟨3, _⟩ => ⟨S8192x1, .i32⟩
  | .hbm, ⟨4, _⟩ => ⟨S8192x1, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v44 : BitVec 1 := Scalar.cmpi .eq arg1 c7_i32
  let v45 : BitVec 32 := Scalar.extui v44
  let c0_i32_16 : BitVec 32 := 0#32
  let v46 : BitVec 1 := Scalar.cmpi .ne v45 c0_i32_16
  v46

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S8192_S8192x1 : S8192.ShapeCasts S8192x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2048_S512x2048_0_0 : ∀ a, (![0, 0] : Fin 2 → Nat) a + S512x2048.size a ≤ S512x2048.size a
  h_S512x2048 : 0 < S512x2048.numel
  bitsLt_bf16_f32 : FTy.bits .bf16 < FTy.bits .f32
  transposes_S512x2048_p1_0_S2048x512 : S512x2048.Transposes [1, 0] S2048x512
  reduces_S512x2048_S512 : S512x2048.Reduces [1] S512
  shapeCasts_S512_S512x1 : S512.ShapeCasts S512x1
  transposes_S512x1_p1_0_S1x512 : S512x1.Transposes [1, 0] S1x512
  broadcasts_S512x1_S512x512 : S512x1.Broadcasts S512x512
  broadcasts_S1x512_S512x512 : S1x512.Broadcasts S512x512
  iota_S512x512_d1_w32 : S512x512.Iotas .tc 32 [1]
  natLt_1_32 : 1 < 32
  reduces_S512x512_S512 : S512x512.Reduces [1] S512
  reducesTo_S8192x1_S_d0_1 : S8192x1.ReducesTo [0, 1] S_
  h_S_ : 0 < S_.numel
  dot_S512x2048_S2048x512_S512x512_1_0_0_1_n_n_wf : DotDims.WF S512x2048 S2048x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .f32 = 32 ∨ (Rect.block (s := S8192x2048) S512x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .f32 = 32 ∨ (Rect.block (s := S4096x2048) S512x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S8192x1.size a
  hwx0_2 : ∀ i : grid0.Coords, EltTy.bits .i32 = 32 ∨ (Rect.block (s := S8192x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S8192x1.size a
  hwx0_3 : ∀ i : grid0.Coords, EltTy.bits .f32 = 32 ∨ (Rect.block (s := S8192x1) S512x1.size (cc0_transform_3 i) (hinb0_3 i)).WholeWords (EltTy.packing .f32)

variable [Facts₀]

def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf

abbrev win0_0 : Pipeline.Window sig grid0 :=
  Pipeline.Window.ofSpec (Memref.whole main_arg0) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S8192 : Shape := ⟨1, ![8192]⟩
abbrev S4096x2048 : Shape := ⟨2, ![4096, 2048]⟩
abbrev S_ : Shape := ⟨0, ![]⟩
abbrev S8192x1 : Shape := ⟨2, ![8192, 1]⟩
abbrev S4096 : Shape := ⟨1, ![4096]⟩
abbrev S1x4096 : Shape := ⟨2, ![1, 4096]⟩
abbrev S8192x4096 : Shape := ⟨2, ![8192, 4096]⟩
abbrev S2048x4096 : Shape := ⟨2, ![2048, 4096]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S4096x2048, .f32⟩
  | .hbm, ⟨3, _⟩ => ⟨S8192x2048, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S4096x2048, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S2048x4096, .f32⟩
  | .hbm, ⟨15, _⟩ => ⟨S8192x4096, .f32⟩
  | .hbm, ⟨16, _⟩ => ⟨S_, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x1, .i32⟩
  | .hbm, ⟨21, _⟩ => ⟨S4096, .i32⟩
  | .hbm, ⟨22, _⟩ => ⟨S1x4096, .i32⟩
  | .hbm, ⟨23, _⟩ => ⟨S8192x4096, .i32⟩
  | .hbm, ⟨24, _⟩ => ⟨S8192x4096, .i32⟩
  | .hbm, ⟨25, _⟩ => ⟨S8192x4096, .i1⟩
  | .hbm, ⟨26, _⟩ => ⟨S8192x4096, .f32⟩
  | .hbm, ⟨27, _⟩ => ⟨S8192x4096, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S8192x4096, .f32⟩
  | .hbm, ⟨32, _⟩ => ⟨S8192x4096, .f32⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_2 : Ref sig .tc := ⟨.hbm, 28, rfl⟩
abbrev main_cst_3 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_call0_v3 : Ref sig .tc := ⟨.hbm, 33, rfl⟩
abbrev main_call0_v4 : Ref sig .tc := ⟨.hbm, 34, rfl⟩
abbrev main_v22 : Ref sig .tc := ⟨.hbm, 35, rfl⟩
abbrev main_cst_4 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S4096x2048_S4096_d1 : S4096x2048.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  transposes_S4096x2048_S2048x4096_1_0 : S4096x2048.Transposes [1, 0] S2048x4096
  bcast_S_S8192x4096 : S_.BroadcastsInDim S8192x4096 (![] : Fin 0 → Fin S8192x4096.rank)
  reducesTo_S8192x4096_S_d0_1 : S8192x4096.ReducesTo [0, 1] S_
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.Pieces.lean ====
/-
  What one grid point leaves behind, as values.

  The kernel keeps a per-row accumulator (a 512 × 1 scratch) across the eight column tiles of a row tile.
  At the first column tile it stores the zero column and then adds the tile's row sums to it; at the others
  it adds the tile's row sums to what the point before left; at the last one it also copies the accumulator
  into the output block. The frame run found each of these stores as a list of written pieces; here each
  list is read back as the value it holds: the accumulator after a point is `acc + rowsums` (with `acc` the
  zero column at a first tile), and the output block at a last tile is the same column.
-/
import proofs.«142503_j3599182594972_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- A first column tile: the accumulator ends at the zero column plus the tile's row sums. -/
theorem acc_first (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .i32) (h4 : a4.IsWhole) (a5 : Memref sig .tc .vmem S512x1 .f32) (h5 : a5.IsWhole) (a6 : Memref sig .tc .vmem S512x1 .f32) (h6 : a6.IsWhole) (hc0 : cond0_0 i) (hc1 : ¬cond0_1 i)
    (x0 : Vec F S512x2048 .f32) (x1 : Vec F S512x2048 .f32) (x2 : Vec F S512x1 .i32) :
    sout0_A_0 c i a2 h2 a3 h3 a4 h4 a5 h5 a6 h6 hc0 hc1 x0 x1 x2 = k0_pay1 (k0_pay3 i x0 x1 x2) k0_pay2 := by
  unfold sout0_A_0
  rw [View.read_writes_eq_canon _ _ _ (scover0_A_0 c i a2 h2 a3 h3 a4 h4 a5 h5 a6 h6 hc0 hc1 x0 x1 x2)]
  unfold kernelRun0_A
  dsimp only
  sl_unfold_words
  rw [View.canon_cons_unit_zero (S := S512x1) hz, View.readCov_unit_zero (S := S512x1) _ hz]
  simp only [View.readAt_eq_ld, h2.read_unread, h3.read_unread, h4.read_unread, h6.read_unread, View.ld_unit_zero (S := S512x1) hz, View.ld_unit_zero (S := S512x2048) hz]

/-- A middle column tile: the accumulator ends at what it held plus the tile's row sums. -/
theorem acc_middle (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .i32) (h4 : a4.IsWhole) (a5 : Memref sig .tc .vmem S512x1 .f32) (h5 : a5.IsWhole) (a6 : Memref sig .tc .vmem S512x1 .f32) (h6 : a6.IsWhole) (hc0 : ¬cond0_0 i) (hc1 : ¬cond0_1 i)
    (x0 : Vec F S512x2048 .f32) (x1 : Vec F S512x2048 .f32) (x2 : Vec F S512x1 .i32) (xs0 : Vec F S512x1 .f32) :
    sout0_B_0 c i a2 h2 a3 h3 a4 h4 a5 h5 a6 h6 hc0 hc1 x0 x1 x2 xs0 = k0_pay1 (k0_pay3 i x0 x1 x2) xs0 := by
  unfold sout0_B_0
  rw [View.read_writes_eq_canon _ _ _ (scover0_B_0 c i a2 h2 a3 h3 a4 h4 a5 h5 a6 h6 hc0 hc1 x0 x1 x2 xs0)]
  unfold kernelRun0_B
  dsimp only
  sl_unfold_words
  rw [View.canon_unit_zero hz]
  simp only [View.readAt_eq_ld, h2.read_unread, h3.read_unread, h4.read_unread, h6.read_unread, View.ld_unit_zero (S := S512x1) hz, View.ld_unit_zero (S := S512x2048) hz]

/-- The last column tile: the accumulator likewise, -/
theorem acc_last (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .i32) (h4 : a4.IsWhole) (a5 : Memref sig .tc .vmem S512x1 .f32) (h5 : a5.IsWhole) (a6 : Memref sig .tc .vmem S512x1 .f32) (h6 : a6.IsWhole) (hc0 : ¬cond0_0 i) (hc1 : cond0_1 i)
    (x0 : Vec F S512x2048 .f32) (x1 : Vec F S512x2048 .f32) (x2 : Vec F S512x1 .i32) (xs0 : Vec F S512x1 .f32) :
    sout0_C_0 c i a2 h2 a3 h3 a4 h4 a5 h5 a6 h6 hc0 hc1 x0 x1 x2 xs0 = k0_pay1 (k0_pay3 i x0 x1 x2) xs0 := by
  unfold sout0_C_0
  rw [View.read_writes_eq_canon _ _ _ (scover0_C_0 c i a2 h2 a3 h3 a4 h4 a5 h5 a6 h6 hc0 hc1 x0 x1 x2 xs0)]
  unfold kernelRun0_C
  dsimp only
  sl_unfold_words
  rw [View.canon_unit_zero hz]
  simp only [View.readAt_eq_ld, h2.read_unread, h3.read_unread, h4.read_unread, h6.read_unread, View.ld_unit_zero (S := S512x1) hz, View.ld_unit_zero (S := S512x2048) hz]

/-- and the output block is the accumulator's final column, read back after the store. -/
theorem out_last (c : Dev nD) (i : grid0.Coords) (a2 : Memref sig .tc .vmem S512x2048 .f32) (h2 : a2.IsWhole) (a3 : Memref sig .tc .vmem S512x2048 .f32) (h3 : a3.IsWhole) (a4 : Memref sig .tc .vmem S512x1 .i32) (h4 : a4.IsWhole) (a5 : Memref sig .tc .vmem S512x1 .f32) (h5 : a5.IsWhole) (a6 : Memref sig .tc .vmem S512x1 .f32) (h6 : a6.IsWhole) (hc0 : ¬cond0_0 i) (hc1 : cond0_1 i)
    (x0 : Vec F S512x2048 .f32) (x1 : Vec F S512x2048 .f32) (x2 : Vec F S512x1 .i32) (xs0 : Vec F S512x1 .f32) :
    out0_C_3 c i a2 h2 a3 h3 a4 h4 a5 h5 a6 h6 hc0 hc1 x0 x1 x2 xs0 = k0_pay1 (k0_pay3 i x0 x1 x2) xs0 := by
  unfold out0_C_3
  rw [View.read_writes_eq_canon _ _ _ (cover0_C_3 c i a2 h2 a3 h3 a4 h4 a5 h5 a6 h6 hc0 hc1 x0 x1 x2 xs0)]
  unfold kernelRun0_C
  dsimp only
  sl_unfold_words
  rw [View.canon_unit_zero hz, View.readCov_unit_zero (S := S512x1) _ hz]
  simp only [View.readAt_eq_ld, h2.read_unread, h3.read_unread, h4.read_unread, h6.read_unread, View.ld_unit_zero (S := S512x1) hz, View.ld_unit_zero (S := S512x2048) hz]

end Cert.KernelIdeal.Pieces

end
-- ==== Proof.LibKeepdims.lean ====
/-
  GENERAL LEMMAS: a rank-2 array summed along its second axis with the sum kept as a column — what
  `sum(x, axis=-1, keepdims=True)` becomes in a vector program — read at an index given by coordinates.
  • `multiReduction_add_axis1_apply`: the lane sum of an `[a, b]` array from the zero word, at `i`, is the sum of row `i`;
  • `shapeCast_a_a1_apply`: an `[a]` array cast to the column `[a, 1]` reads, at `(i, u)`, the operand at `i`;
  • `broadcastTo_a1_ab_apply`: a column `[a, 1]` broadcast to `[a, b]` reads, at `(p, c)`, the column at `(p, 0)`.
  (The column transposed to a row is the library's `transpose_ix2_apply`; a row broadcast down the rows its
  `broadcastTo_1b_ab_apply`.)
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Idealize.ShloMosaic.ValueIdx

open Idealize.ShloMosaic

variable {α : Type}

/-- An `[a]` array cast to the column `[a, 1]` reads, at `(i, u)`, the operand at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The lane sum of an `[a, b]` array of extended reals, accumulated from the zero word: at `i` it is the sum of row `i`. -/
theorem multiReduction_add_axis1_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (i : Fin a) :
    multiReduction .add [1] ⟨1, ![a]⟩ src 0x00000000#32 h hφ hacc (ix1 i) = ∑ k : Fin b, src (ix2 i k) := by
  refine (Ideal.multiReduction_add_single src 0x00000000#32 h hφ hacc (ix1 i)).trans ?_
  refine Finset.sum_congr rfl fun k _ => congrArg src ?_
  funext c
  match c with
  | ⟨0, _⟩ => exact Fin.ext rfl
  | ⟨1, _⟩ => exact Fin.ext rfl

end Idealize.ShloMosaic.ValueIdx

end
-- ==== Proof.Blocks.lean ====
/-
  The windows' blocks, read entry by entry off the argument arrays.

  The grid is 16 row tiles by 8 column tiles; point `t` is row tile `t / 8`, column tile `t % 8`. At point `t`
  the samples' window holds rows `512·(t/8) …` of `X`, the centres' window rows `512·(t%8) …` of `C`, the
  labels' window the same rows as the samples' of the labels reshaped to a column (the one host operation
  before the kernel), and the output's window the same rows of the result column.
-/
import proofs.«142503_j3599182594972_1_alg».proof.Proof.Gen.KernelIdeal.Frame
import proofs.«142503_j3599182594972_1_alg».proof.Proof.LibKeepdims
import Idealize.ShloMosaic.Lib.Pipeline.Value
import Idealize.ShloMosaic.Lib.StableHlo.Run
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Blocks

open Cert.KernelIdeal Cert.KernelIdeal.Gen Idealize.ShloMosaic.ValueIdx

variable {F : FTy → Type} [FloatOps F]
variable (m : (ℓ : Loc nD τ sig) → Buf (Elt F) ℓ)

/-- Where each window's block sits at grid point `t`, and the point's column-tile coordinate: decided over the 128 points. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = t.val / 8 ∧ win0_3.index t (1 : Fin 2) = 0
    ∧ (grid0.coords t 1).val = t.val % 8 :=
  (by decide +kernel : ∀ t : Fin grid0.N, _)

theorem row_lt (t : Fin cfg0.N) (r : Fin 512) : 512 * (t.val / 8) + r.val < 8192 := by
  have h1 := t.isLt; have h2 : cfg0.N = 128 := N_0; have h3 := r.isLt; omega

theorem col_lt (t : Fin cfg0.N) (cc : Fin 512) : 512 * (t.val % 8) + cc.val < 4096 := by
  have h3 := cc.isLt; omega

/-- The samples' block at point `t`: rows `512·(t/8) + r` of `X`. -/
theorem samples_block (c : Dev nD) (t : Fin cfg0.N) (r : Fin 512) (k : Fin 2048) :
    (iblk m c 0 t : Vec F S512x2048 .f32) (ix2 r k)
      = m ((c : Thread nD τ).loc main_arg0) (ix2 ⟨512 * (t.val / 8) + r.val, row_lt t r⟩ k) := by
  unfold iblk
  rw [View.read_apply]
  show V m c main_arg0 _ = _
  rw [V_main_arg0]
  obtain ⟨e0, e1, -⟩ := idx_facts t
  refine congrArg _ (funext fun a => Fin.ext ?_)
  match a with
  | ⟨0, _⟩ => show win0_0.index t (0 : Fin 2) * 512 + 1 * r.val = 512 * (t.val / 8) + r.val; rw [e0]; omega
  | ⟨1, _⟩ => show win0_0.index t (1 : Fin 2) * 2048 + 1 * k.val = k.val; rw [e1]; omega

/-- The centres' block at point `t`: rows `512·(t%8) + cc` of `C`. -/
theorem centres_block (c : Dev nD) (t : Fin cfg0.N) (cc : Fin 512) (k : Fin 2048) :
    (iblk m c 1 t : Vec F S512x2048 .f32) (ix2 cc k)
      = m ((c : Thread nD τ).loc main_arg2) (ix2 ⟨512 * (t.val % 8) + cc.val, col_lt t cc⟩ k) := by
  unfold iblk
  rw [View.read_apply]
  show V m c main_arg2 _ = _
  rw [V_main_arg2]
  obtain ⟨-, -, e0, e1, -⟩ := idx_facts t
  refine congrArg _ (funext fun a => Fin.ext ?_)
  match a with
  | ⟨0, _⟩ => show win0_1.index t (0 : Fin 2) * 512 + 1 * cc.val = 512 * (t.val % 8) + cc.val; rw [e0]; omega
  | ⟨1, _⟩ => show win0_1.index t (1 : Fin 2) * 2048 + 1 * k.val = k.val; rw [e1]; omega

/-- The labels as the kernel finds them: the label vector reshaped to a column. -/
theorem labels_entry (c : Dev nD) :
    (V m c main_v0 : S8192x1.Idx → BitVec 32) = shapeCast S8192x1 (m ((c : Thread nD τ).loc main_arg1)) shapeCasts_S8192_S8192x1 := by
  show StableHlo.after hostOps0 (fun b => m (c, b)) (Proc.devRef .tc main_v0) = _
  after_results
  rfl

/-- The labels' block at point `t`: the labels of samples `512·(t/8) + r`. -/
theorem labels_block (c : Dev nD) (t : Fin cfg0.N) (r : Fin 512) (u : Fin 1) :
    (iblk m c 2 t : Vec F S512x1 .i32) (ix2 r u)
      = m ((c : Thread nD τ).loc main_arg1) (ix1 ⟨512 * (t.val / 8) + r.val, row_lt t r⟩) := by
  unfold iblk
  rw [View.read_apply]
  show V m c main_v0 _ = _
  obtain ⟨-, -, -, -, e0, e1, -⟩ := idx_facts t
  have hidx : ((cfg0.win 2).blk t).view.emb (ix2 r u) = (ix2 ⟨512 * (t.val / 8) + r.val, row_lt t r⟩ u : S8192x1.Idx) :=
    funext fun a => Fin.ext (by
      match a with
      | ⟨0, _⟩ => show win0_2.index t (0 : Fin 2) * 512 + 1 * r.val = 512 * (t.val / 8) + r.val; rw [e0]; omega
      | ⟨1, _⟩ => show win0_2.index t (1 : Fin 2) * 1 + 1 * u.val = u.val; rw [e1]; omega)
  rw [hidx, labels_entry]
  exact shapeCast_a_a1_apply _ _ _ u

end Cert.KernelIdeal.Blocks

end
-- ==== Proof.Spec.lean ====
/-
  The centre loss as one function of its three arrays, over the extended reals.

  For a sample `b` (a row of `X`, 8192 rows of 2048 features) and a class `c` (a row of `C`, 4096 centres),
  the squared distance is `‖X b‖² + ‖C c‖² − 2 · ⟨X b, C c⟩`; it is multiplied by the indicator that the
  sample's label is `c`, clamped to `[1e-12, 1e12]` (so every entry, matching or not, contributes at least the
  lower bound), all 8192 × 4096 clamped entries are summed, and the sum is divided by 8192.

  Both programs compute this number; they differ only in how the sum over the classes is grouped — sixteen
  row tiles times eight column tiles of 512 × 512 entries, the column tiles accumulated one after the other,
  against one sum over the whole matrix. Addition of extended reals is commutative and associative, so the
  grouping does not matter (`sum_tiles`, `sum_fin_blocks`); no finiteness is needed.
-/
import Idealize.ShloMosaic.PureOps.Ideal
import Idealize.ShloMosaic.PureOps.Ideal.Laws
import Idealize.ShloMosaic.Lib.ValueIdx

noncomputable section

open scoped BigOperators

namespace CenterLoss

open Idealize.ShloMosaic Idealize.ShloMosaic.ValueIdx

/-- The samples, the centres, the labels. -/
abbrev SX : Shape := ⟨2, ![8192, 2048]⟩
abbrev SC : Shape := ⟨2, ![4096, 2048]⟩
abbrev SL : Shape := ⟨1, ![8192]⟩

/-- The indicator of "the label is this class", as the extended real 0 or 1. -/
def hit (lab cls : BitVec 32) : EReal := FloatOps.uitofp (F := Ideal) .f32 (IntOp.cmpi .eq lab cls)

/-- One clamped entry from the three inner products: `min hi (max lo ((‖x‖² + ‖c‖² − 2·⟨x,c⟩) · [lab = cls]))`. -/
def cell (sx sc xc : EReal) (lab cls : BitVec 32) : EReal :=
  min (Ideal.ofBits .f32 0x5368D4A5#32)
    (max (Ideal.ofBits .f32 0x2B8CBCCC#32) ((sx + sc - Ideal.ofBits .f32 0x40000000#32 * xc) * hit lab cls))

/-- The clamped, masked squared distance of sample `b` to centre `c`. -/
def entry (X : SX.Idx → EReal) (L : SL.Idx → BitVec 32) (C : SC.Idx → EReal) (b : Fin 8192) (c : Fin 4096) : EReal :=
  cell (∑ k : Fin 2048, X (ix2 b k) * X (ix2 b k)) (∑ k : Fin 2048, C (ix2 c k) * C (ix2 c k))
    (∑ k : Fin 2048, X (ix2 b k) * C (ix2 c k)) (L (ix1 b)) (BitVec.ofNat 32 c.val)

/-- Sample `b`'s total over all classes. -/
def rowLoss (X : SX.Idx → EReal) (L : SL.Idx → BitVec 32) (C : SC.Idx → EReal) (b : Fin 8192) : EReal :=
  ∑ c : Fin 4096, entry X L C b c

/-- The loss: the grand total (from the zero the reductions start at) divided by the batch size. -/
def loss (X : SX.Idx → EReal) (L : SL.Idx → BitVec 32) (C : SC.Idx → EReal) : EReal :=
  Ideal.div (Ideal.ofBits .f32 0x00000000#32 + ∑ b : Fin 8192, rowLoss X L C b) (Ideal.ofBits .f32 0x46000000#32)

/-- Row `r` of row tile `i`, summed over column tile `j` (512 classes); zero outside the 16 × 8 tiling. -/
def tileSum (X : SX.Idx → EReal) (L : SL.Idx → BitVec 32) (C : SC.Idx → EReal) (i j : ℕ) (r : Fin 512) : EReal :=
  if h : i < 16 ∧ j < 8 then
    ∑ cc : Fin 512, entry X L C ⟨512 * i + r.val, by have := r.isLt; omega⟩ ⟨512 * j + cc.val, by have := cc.isLt; omega⟩
  else 0

/-- A sum over `n · m` consecutive indices is the sum over `n` blocks of the sums over each block's `m` indices. -/
theorem sum_fin_blocks {M : Type*} [AddCommMonoid M] (n m : ℕ) (g : Fin (n * m) → M) :
    ∑ c, g c = ∑ j : Fin n, ∑ r : Fin m, g ⟨m * j.val + r.val, by
      have hj := j.isLt; have hr := r.isLt
      calc m * j.val + r.val < m * j.val + m := by omega
        _ = m * (j.val + 1) := by ring
        _ ≤ m * n := Nat.mul_le_mul_left m hj
        _ = n * m := Nat.mul_comm m n⟩ := by
  rw [← Equiv.sum_comp (finProdFinEquiv (m := n) (n := m)) g, Fintype.sum_prod_type]
  refine Finset.sum_congr rfl fun j _ => Finset.sum_congr rfl fun r _ => congrArg g (Fin.ext ?_)
  show r.val + m * j.val = m * j.val + r.val
  omega

/-- The eight column tiles of a row add up to the row's total. -/
theorem sum_tiles (X : SX.Idx → EReal) (L : SL.Idx → BitVec 32) (C : SC.Idx → EReal) (i : ℕ) (hi : i < 16) (r : Fin 512) :
    ∑ j ∈ Finset.range 8, tileSum X L C i j r = rowLoss X L C ⟨512 * i + r.val, by have := r.isLt; omega⟩ := by
  rw [Finset.sum_range]
  unfold rowLoss
  rw [sum_fin_blocks 8 512 (fun c => entry X L C ⟨512 * i + r.val, by have := r.isLt; omega⟩ c)]
  refine Finset.sum_congr rfl fun j _ => ?_
  unfold tileSum
  rw [dif_pos ⟨hi, j.isLt⟩]

/-- A one-bit word widened to 32 bits and read as a signed integer is the bit read unsigned: the two ways the
    programs turn the comparison's bit into 0.0 or 1.0 agree. -/
theorem sitofp_bit (b : BitVec 1) :
    FloatOps.sitofp (F := Ideal) .f32 (b.setWidth 32) = FloatOps.uitofp (F := Ideal) .f32 b := by
  have h : (b.setWidth 32).toInt = (b.toNat : ℤ) := by revert b; decide
  show (((b.setWidth 32).toInt : ℝ) : EReal) = ((b.toNat : ℝ) : EReal)
  rw [h, Int.cast_natCast]

end CenterLoss

end
-- ==== Proof.Payload.lean ====
/-
  One 512 × 512 tile of the distance matrix, read entry by entry.

  The body's pure part takes a block `x0` of 512 samples, a block `x1` of 512 centres and the 512 labels `x2`
  of the samples, and returns the column of row sums of the tile. Over the extended reals (where rounding the
  matrix product's operands to bf16 changes nothing) the tile's entry at row `r`, column `cc` is the clamped,
  masked `‖x0 r‖² + ‖x1 cc‖² − 2·⟨x0 r, x1 cc⟩`: the two squared norms are lane sums kept as a column (the
  centres' then turned into a row), broadcast over the tile; the inner product is the matrix product of `x0`
  with the transpose of `x1`; the mask compares the sample's label with the class number, which is the column
  tile's offset `512 · j` plus the column `cc`.
-/
import proofs.«142503_j3599182594972_1_alg».proof.Proof.Gen.KernelIdeal.Skeleton
import proofs.«142503_j3599182594972_1_alg».proof.Proof.LibKeepdims
import proofs.«142503_j3599182594972_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Payload

open Cert.KernelIdeal Cert.KernelIdeal.Gen Idealize.ShloMosaic Idealize.ShloMosaic.ValueIdx CenterLoss

/-! ## The matrix product's operand indices -/

theorem lhs_row (i : S512x512.Idx) (q : dot_S512x2048_S2048x512_S512x512_1_0_0_1_n_n.contr.Idx) : (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhs_feat (i : S512x512.Idx) (q : dot_S512x2048_S2048x512_S512x512_1_0_0_1_n_n.contr.Idx) : (dot_S512x2048_S2048x512_S512x512_1_0_0_1_n_n.lhsIdx i q 1).val = (q ⟨0, by decide⟩).val :=
  dot_S512x2048_S2048x512_S512x512_1_0_0_1_n_n.lhsIdx_val_of_single rfl i q
theorem rhs_feat (i : S512x512.Idx) (q : dot_S512x2048_S2048x512_S512x512_1_0_0_1_n_n.contr.Idx) : (dot_S512x2048_S2048x512_S512x512_1_0_0_1_n_n.rhsIdx i q 0).val = (q ⟨0, by decide⟩).val :=
  dot_S512x2048_S2048x512_S512x512_1_0_0_1_n_n.rhsIdx_val_of_single rfl i q
theorem rhs_col (i : S512x512.Idx) (q : dot_S512x2048_S2048x512_S512x512_1_0_0_1_n_n.contr.Idx) : (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- The samples' block times the transposed centres' block, from the zero accumulator: at `(r, cc)` the inner
    product of sample `r` and centre `cc`. -/
theorem cross_apply (x0 x1 : FVec Ideal S512x2048 .f32) (r cc : Fin 512) :
    matmul dot_S512x2048_S2048x512_S512x512_1_0_0_1_n_n none (truncf .bf16 x0 bitsLt_bf16_f32)
        (transpose S2048x512 [1, 0] (truncf .bf16 x1 bitsLt_bf16_f32) transposes_S512x2048_p1_0_S2048x512)
        (constant S512x512 .f32 0x00000000#32) (ix2 r cc)
      = ∑ k : Fin 2048, x0 (ix2 r k) * x1 (ix2 cc k) := by
  simp only [matmul]
  rw [Ideal.matmul_constant_zero_apply, ← Equiv.sum_comp (contrEquiv1 dot_S512x2048_S2048x512_S512x512_1_0_0_1_n_n 2048 rfl rfl).symm]
  refine Finset.sum_congr rfl fun k _ => ?_
  have hk := contrEquiv1_symm_val dot_S512x2048_S2048x512_S512x512_1_0_0_1_n_n 2048 rfl rfl k
  have el : dot_S512x2048_S2048x512_S512x512_1_0_0_1_n_n.lhsIdx (ix2 r cc) ((contrEquiv1 dot_S512x2048_S2048x512_S512x512_1_0_0_1_n_n 2048 rfl rfl).symm k) = ix2 r k := funext fun a => Fin.ext (by
    match a with
    | ⟨0, _⟩ => exact lhs_row _ _
    | ⟨1, _⟩ => exact (lhs_feat _ _).trans hk)
  have er : dot_S512x2048_S2048x512_S512x512_1_0_0_1_n_n.rhsIdx (ix2 r cc) ((contrEquiv1 dot_S512x2048_S2048x512_S512x512_1_0_0_1_n_n 2048 rfl rfl).symm k) = ix2 k cc := funext fun a => Fin.ext (by
    match a with
    | ⟨0, _⟩ => exact (rhs_feat _ _).trans hk
    | ⟨1, _⟩ => exact rhs_col _ _)
  rw [el, er, transpose_ix2_apply]
  rfl

/-- A block's squared row norms, kept as a column and broadcast over the tile's columns. -/
theorem rownorm_apply (x0 : FVec Ideal S512x2048 .f32) (hacc : (0x00000000#32 : BitVec 32) = 0x00000000#32) (r cc : Fin 512) :
    broadcastTo S512x512 (shapeCast S512x1 (multiReduction .add [1] S512 (mulf x0 x0) 0x00000000#32 reduces_S512x2048_S512 (.inl rfl) hacc)
        shapeCasts_S512_S512x1) broadcasts_S512x1_S512x512 (ix2 r cc)
      = ∑ k : Fin 2048, x0 (ix2 r k) * x0 (ix2 r k) :=
  (broadcastTo_a1_ab_apply _ _ r cc).trans ((shapeCast_a_a1_apply _ _ r 0).trans
    (multiReduction_add_axis1_apply (mulf x0 x0) reduces_S512x2048_S512 (.inl rfl) hacc r))

/-- The other block's squared row norms, the column turned into a row and broadcast over the tile's rows. -/
theorem colnorm_apply (x1 : FVec Ideal S512x2048 .f32) (hacc : (0x00000000#32 : BitVec 32) = 0x00000000#32) (r cc : Fin 512) :
    broadcastTo S512x512 (transpose S1x512 [1, 0] (shapeCast S512x1 (multiReduction .add [1] S512 (mulf x1 x1) 0x00000000#32 reduces_S512x2048_S512 (.inl rfl) hacc)
        shapeCasts_S512_S512x1) transposes_S512x1_p1_0_S1x512) broadcasts_S1x512_S512x512 (ix2 r cc)
      = ∑ k : Fin 2048, x1 (ix2 cc k) * x1 (ix2 cc k) :=
  (broadcastTo_1b_ab_apply _ _ r cc).trans ((transpose_ix2_apply _ _ (0 : Fin 1) cc).trans ((shapeCast_a_a1_apply _ _ cc 0).trans
    (multiReduction_add_axis1_apply (mulf x1 x1) reduces_S512x2048_S512 (.inl rfl) hacc cc)))

/-- The mask: the sample's label against the class number `off + cc` of the tile's column. -/
theorem mask_apply (off : BitVec 32) (x2 : IVec S512x1 32) (r cc : Fin 512) :
    (sitofp .f32 (extui 32 (cmpi .eq (broadcastTo S512x512 (shapeCast S512x1 x2 shapeCasts_S512x1_S512x1) broadcasts_S512x1_S512x512)
        (addi (broadcast S512x512 off) (iota .tc S512x512 32 [1] iota_S512x512_d1_w32))) natLt_1_32) : FVec Ideal S512x512 .f32) (ix2 r cc)
      = hit (x2 (ix2 r (0 : Fin 1))) (off + BitVec.ofNat 32 cc.val) := by
  show FloatOps.sitofp (F := Ideal) .f32 ((IntOp.cmpi .eq (broadcastTo S512x512 (shapeCast S512x1 x2 shapeCasts_S512x1_S512x1) broadcasts_S512x1_S512x512 (ix2 r cc))
      (off + BitVec.ofNat 32 (0 * 512 + cc.val))).setWidth 32) = _
  rw [sitofp_bit, broadcastTo_a1_ab_apply, shapeCast_self, Nat.zero_mul, Nat.zero_add]
  rfl

/-! ## The tile's row sums -/

/-- The body's pure part at row `r`: the sum over the tile's 512 columns of the clamped, masked squared distances. -/
theorem rowsums_apply (i : grid0.Coords) (x0 x1 : Vec Ideal S512x2048 .f32) (x2 : Vec Ideal S512x1 .i32) (r : Fin 512) (u : Fin 1) :
    k0_pay3 (F := Ideal) i x0 x1 x2 (ix2 r u)
      = ∑ cc : Fin 512, cell (∑ k : Fin 2048, x0 (ix2 r k) * x0 (ix2 r k)) (∑ k : Fin 2048, x1 (ix2 cc k) * x1 (ix2 cc k))
          (∑ k : Fin 2048, x0 (ix2 r k) * x1 (ix2 cc k)) (x2 (ix2 r (0 : Fin 1)))
          (BitVec.ofNat 32 (i 1).val * 512#32 + BitVec.ofNat 32 cc.val) := by
  unfold k0_pay3
  refine (shapeCast_a_a1_apply _ _ r u).trans ?_
  refine (multiReduction_add_axis1_apply _ reduces_S512x512_S512 (.inl rfl) rfl r).trans ?_
  refine Finset.sum_congr rfl fun cc _ => ?_
  unfold cell
  refine congrArg₂ min rfl (congrArg₂ max rfl (congrArg₂ (· * ·) (congrArg₂ (· - ·) (congrArg₂ (· + ·) ?_ ?_) (congrArg₂ (· * ·) rfl ?_)) ?_))
  · exact rownorm_apply x0 rfl r cc
  · exact colnorm_apply x1 rfl r cc
  · exact cross_apply x0 x1 r cc
  · exact mask_apply _ x2 r cc

end Cert.KernelIdeal.Payload

end
-- ==== Proof.Tile.lean ====
/-
  One grid point's row sums are a tile of the loss.

  At point `t` (row tile `t / 8`, column tile `t % 8`) the body's pure part, applied to the three blocks the
  windows hold there, gives at row `r` the sum over the tile's 512 columns of the clamped, masked squared
  distance between sample `512·(t/8) + r` and centre `512·(t%8) + cc`: the blocks are those rows of the
  arrays, and the class number the mask compares with, `(t%8)·512 + cc` in 32-bit arithmetic, is that centre's
  number.
-/
import proofs.«142503_j3599182594972_1_alg».proof.Proof.Blocks
import proofs.«142503_j3599182594972_1_alg».proof.Proof.Payload

set_option maxRecDepth 16384

noncomputable section

open scoped BigOperators
open Idealize.ShloMosaic Idealize.ShloMosaic.TcCoe Idealize.SL.Sem

namespace Cert.KernelIdeal.Tile

open Cert.KernelIdeal Cert.KernelIdeal.Gen Idealize.ShloMosaic.ValueIdx CenterLoss
open Cert.KernelIdeal.Blocks Cert.KernelIdeal.Payload

variable (m : (ℓ : Loc nD τ sig) → Buf (Elt Ideal) ℓ)

/-- The class number of column `cc` of column tile `j`, as the kernel computes it in 32-bit words. -/
theorem class_word (j cc : ℕ) : BitVec.ofNat 32 j * 512#32 + BitVec.ofNat 32 cc = BitVec.ofNat 32 (512 * j + cc) := by
  show BitVec.ofNat 32 j * BitVec.ofNat 32 512 + BitVec.ofNat 32 cc = _
  rw [← BitVec.ofNat_mul, ← BitVec.ofNat_add, Nat.mul_comm]

theorem tile_rowsums (c : Dev nD) (t : Fin cfg0.N) (r : Fin 512) (u : Fin 1) :
    k0_pay3 (F := Ideal) (grid0.coords t) (iblk m c 0 t) (iblk m c 1 t) (iblk m c 2 t) (ix2 r u)
      = tileSum (m ((c : Thread nD τ).loc main_arg0)) (m ((c : Thread nD τ).loc main_arg1)) (m ((c : Thread nD τ).loc main_arg2))
          (t.val / 8) (t.val % 8) r := by
  refine (rowsums_apply (grid0.coords t) (iblk m c 0 t) (iblk m c 1 t) (iblk m c 2 t) r u).trans ?_
  have hN : cfg0.N = 128 := N_0
  have ht := t.isLt
  unfold tileSum
  rw [dif_pos ⟨by omega, by omega⟩]
  refine Finset.sum_congr rfl fun cc _ => ?_
  unfold entry
  rw [(idx_facts t).2.2.2.2.2.2.2.2, class_word]
  simp only [samples_block m c t, centres_block m c t, labels_block m c t]

end Cert.KernelIdeal.Tile

end
-- ==== Proof.Accumulate.lean ====
/-
  The accumulator across a row tile's eight column tiles, and what the last one writes out.

  After point `n` the accumulator holds, at row `r`, the sum of the tiles `(n/8, 0), …, (n/8, n%8)` at that row:
  a first column tile starts from the zero column, every other one adds its tile to what the point before left.
  At a last column tile (`n % 8 = 7`) the output block is the accumulator, so its row `r` holds all eight tiles
  of row tile `n/8`: sample `512·(n/8) + r`'s total over every class.
-/
import proofs.«142503_j3599182594972_1_alg».proof.Proof.Pieces
import proofs.«142503_j3599182594972_1_alg».proof.Proof.Tile

set_option maxRecDepth 16384

noncomputable section

open scoped BigOperators
open Idealize.ShloMosaic Idealize.ShloMosaic.TcCoe Idealize.SL.Sem

namespace Cert.KernelIdeal.Accumulate

open Cert.KernelIdeal Cert.KernelIdeal.Gen Idealize.ShloMosaic.ValueIdx CenterLoss
open Cert.KernelIdeal.Pieces Cert.KernelIdeal.Tile

variable (m : (ℓ : Loc nD τ sig) → Buf (Elt Ideal) ℓ)

/-- Adding a tile's row sums to the accumulator, entry by entry. -/
theorem add_apply (v38 : FVec Ideal S512x1 .f32) (v39 : Vec Ideal S512x1 .f32) (j : S512x1.Idx) :
    k0_pay1 (F := Ideal) v38 v39 j = v39 j + v38 j := by
  unfold k0_pay1
  rw [shapeCast_self]
  rfl

/-- The column a first tile starts from is zero. -/
theorem zero_apply (j : S512x1.Idx) : k0_pay2 (F := Ideal) j = 0 := by
  unfold k0_pay2
  rw [shapeCast_self]
  exact Ideal.ofBits_zero_f32

/-- After a first column tile the accumulator is that tile. -/
theorem first_step (c : Dev nD) (t : Fin cfg0.N) (h0 : t.val % 8 = 0) (r : Fin 512) (u : Fin 1) :
    (outsAt0 m c t.val t.isLt).2 (ix2 r u) = tileSum (m ((c : Thread nD τ).loc main_arg0)) (m ((c : Thread nD τ).loc main_arg1)) (m ((c : Thread nD τ).loc main_arg2)) (t.val / 8) (t.val % 8) r := by
  have h1 : ¬t.val % 8 = 7 := by omega
  rw [outsAt0_A m c t h0 h1]
  dsimp only
  refine (congrFun (acc_first (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)) (ix2 r u)).trans ?_
  rw [add_apply, zero_apply, zero_add]
  exact tile_rowsums m c t r u

/-- After any other column tile it is what the point before left plus that tile. -/
theorem next_step (c : Dev nD) (t : Fin cfg0.N) (h0 : ¬t.val % 8 = 0) (r : Fin 512) (u : Fin 1) :
    (outsAt0 m c t.val t.isLt).2 (ix2 r u)
      = (outsAt0 m c (t.val - 1) (Nat.lt_of_le_of_lt (Nat.sub_le _ _) t.isLt)).2 (ix2 r u) + tileSum (m ((c : Thread nD τ).loc main_arg0)) (m ((c : Thread nD τ).loc main_arg1)) (m ((c : Thread nD τ).loc main_arg2)) (t.val / 8) (t.val % 8) r := by
  by_cases h1 : t.val % 8 = 7
  · rw [outsAt0_C m c t h0 h1]
    dsimp only
    refine (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r u)).trans ?_
    rw [add_apply]
    exact congrArg _ (tile_rowsums m c t r u)
  · rw [outsAt0_B m c t h0 h1]
    dsimp only
    refine (congrFun (acc_middle (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2) (ix2 r u)).trans ?_
    rw [add_apply]
    exact congrArg _ (tile_rowsums m c t r u)

/-- The accumulator after point `n`: the tiles of row tile `n / 8` up to column tile `n % 8`, summed. -/
theorem acc_eq (c : Dev nD) : ∀ (n : ℕ) (h : n < cfg0.N) (r : Fin 512) (u : Fin 1),
    (outsAt0 m c n h).2 (ix2 r u) = ∑ j ∈ Finset.range (n % 8 + 1), tileSum (m ((c : Thread nD τ).loc main_arg0)) (m ((c : Thread nD τ).loc main_arg1)) (m ((c : Thread nD τ).loc main_arg2)) (n / 8) j r
  | 0, h, r, u => by
    refine (first_step m c ⟨0, h⟩ rfl r u).trans ?_
    show tileSum _ _ _ (0 / 8) (0 % 8) r = _
    rw [Nat.zero_mod, Nat.zero_add, Finset.sum_range_one]
  | n + 1, h, r, u => by
    by_cases h0 : (n + 1) % 8 = 0
    · refine (first_step m c ⟨n + 1, h⟩ h0 r u).trans ?_
      show tileSum _ _ _ ((n + 1) / 8) ((n + 1) % 8) r = _
      rw [h0, Nat.zero_add, Finset.sum_range_one]
    · refine (next_step m c ⟨n + 1, h⟩ h0 r u).trans ?_
      show (outsAt0 m c n (Nat.lt_of_succ_lt h)).2 (ix2 r u) + tileSum _ _ _ ((n + 1) / 8) ((n + 1) % 8) r = _
      rw [acc_eq c n (Nat.lt_of_succ_lt h) r u]
      have e1 : (n + 1) / 8 = n / 8 := by omega
      have e2 : (n + 1) % 8 = n % 8 + 1 := by omega
      rw [e1, e2]
      exact (Finset.sum_range_succ _ _).symm

/-- At a last column tile the output block is the accumulator. -/
theorem out_eq_acc (c : Dev nD) (t : Fin cfg0.N) (h1 : t.val % 8 = 7) (r : Fin 512) (u : Fin 1) :
    (outsAt0 m c t.val t.isLt).1 (ix2 r u) = (outsAt0 m c t.val t.isLt).2 (ix2 r u) := by
  have h0 : ¬t.val % 8 = 0 := by omega
  rw [outsAt0_C m c t h0 h1]
  dsimp only
  exact (congrFun (out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r u)).trans
    (congrFun (acc_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2) (ix2 r u)).symm

/-- So at a last column tile, row `r` of the output block is sample `512·(t/8) + r`'s total over all classes. -/
theorem out_rowLoss (c : Dev nD) (t : Fin cfg0.N) (h1 : t.val % 8 = 7) (r : Fin 512) (u : Fin 1) :
    (outsAt0 m c t.val t.isLt).1 (ix2 r u)
      = rowLoss (m ((c : Thread nD τ).loc main_arg0)) (m ((c : Thread nD τ).loc main_arg1)) (m ((c : Thread nD τ).loc main_arg2)) ⟨512 * (t.val / 8) + r.val, Blocks.row_lt t r⟩ := by
  have hN : cfg0.N = 128 := N_0
  have ht := t.isLt
  rw [out_eq_acc m c t h1 r u, acc_eq m c t.val t.isLt r u, h1]
  exact sum_tiles _ _ _ (t.val / 8) (by omega) r

end Cert.KernelIdeal.Accumulate

end
-- ==== Proof.Final.lean ====
/-
  The kernel's program ends at the loss.

  The output column is written back once per row tile, at its last column tile, and those sixteen blocks of 512
  rows tile the 8192 × 1 result: after the run its row `b` holds sample `b`'s total over all classes. The two
  host operations after the kernel sum that column from a zero initial value and divide by 8192.
-/
import proofs.«142503_j3599182594972_1_alg».proof.Proof.Accumulate
import Idealize.ShloMosaic.Lib.Pipeline.Value
import Idealize.ShloMosaic.Lib.StableHlo.Run
import Idealize.ShloMosaic.PureOps.Ideal.Laws

set_option maxRecDepth 16384

noncomputable section

open scoped BigOperators
open Idealize.ShloMosaic Idealize.ShloMosaic.TcCoe Idealize.SL.Sem
open Idealize.ShloMosaic.Pipeline (Dat)

namespace Cert.KernelIdeal.Final

open Cert.KernelIdeal Cert.KernelIdeal.Gen Idealize.ShloMosaic.ValueIdx CenterLoss
open Cert.KernelIdeal.Blocks Cert.KernelIdeal.Accumulate

variable (m : (ℓ : Loc nD τ sig) → Buf (Elt Ideal) ℓ) (ρ : Dev nD → PrngReg)

/-- The result column: row `b` is sample `b`'s total. -/
def rowTotals (c : Dev nD) : S8192x1.Idx → EReal := fun i =>
  rowLoss (m ((c : Thread nD τ).loc main_arg0)) (m ((c : Thread nD τ).loc main_arg1)) (m ((c : Thread nD τ).loc main_arg2)) ⟨(i 0).val, (i 0).isLt⟩

/-- What a last column tile writes back is its 512 rows of the result column. -/
theorem flushed_eq (c : Dev nD) (t : Fin cfg0.N) (hf : (cfg0.win 3).flush t = true) :
    (dats m 0 c).flushed 3 t = ((cfg0.win 3).blk t).view.read (Elt Ideal) (rowTotals m c) := by
  have h7 : t.val % 8 = 7 := (flush0_3 t).mp hf
  show (cfg0.win 3).cut (grid0.coords t) ((dats m 0 c).after 3 t) = _
  rw [after0_3]
  funext y
  obtain ⟨r, u, rfl⟩ : ∃ (r : Fin 512) (u : Fin 1), y = ix2 r u := ⟨y 0, y 1, eq_ix2 y⟩
  show (outsAt0 m c t.val t.isLt).1 (ix2 r u) = rowTotals m c (((cfg0.win 3).blk t).view.emb (ix2 r u))
  rw [out_rowLoss m c t h7 r u]
  unfold rowTotals
  refine congrArg (rowLoss _ _ _) (Fin.ext ?_)
  show 512 * (t.val / 8) + r.val = win0_3.index t (0 : Fin 2) * 512 + 1 * r.val
  rw [(idx_facts t).2.2.2.2.2.2.1]
  omega

/-- An index of the result column is in point `t`'s block iff each coordinate is in the block's range. -/
theorem mem_blk (t : Fin cfg0.N) (i : S8192x1.Idx) :
    i ∈ ((cfg0.win 3).blk t).view.set ↔ ∀ a : Fin 2, win0_3.index t a * S512x1.size a ≤ (i a).val ∧ (i a).val < win0_3.index t a * S512x1.size a + S512x1.size a := by
  show i ∈ ((View.whole main_v1).slice (win0_3.rect t)).set ↔ _
  rw [View.set_slice_whole, Rect.mem_set_unit]
  exact Iff.rfl

/-- Every row is in the block written back at the last column tile of its row tile. -/
theorem cover (i : S8192x1.Idx) : ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 128 := N_0
  have hlt : 8 * ((i 0).val / 512) + 7 < cfg0.N := by omega
  refine ⟨⟨8 * ((i 0).val / 512) + 7, hlt⟩, (flush0_3 _).mpr (by show (8 * ((i 0).val / 512) + 7) % 8 = 7; omega), ?_⟩
  rw [mem_blk]
  obtain ⟨-, -, -, -, -, -, e0, e1, -⟩ := idx_facts ⟨8 * ((i 0).val / 512) + 7, hlt⟩
  intro a
  match a with
  | ⟨0, _⟩ =>
    show win0_3.index ⟨8 * ((i 0).val / 512) + 7, hlt⟩ (0 : Fin 2) * 512 ≤ (i 0).val ∧ (i 0).val < win0_3.index ⟨8 * ((i 0).val / 512) + 7, hlt⟩ (0 : Fin 2) * 512 + 512
    rw [e0]
    show (8 * ((i 0).val / 512) + 7) / 8 * 512 ≤ (i 0).val ∧ (i 0).val < (8 * ((i 0).val / 512) + 7) / 8 * 512 + 512
    omega
  | ⟨1, _⟩ =>
    show win0_3.index ⟨8 * ((i 0).val / 512) + 7, hlt⟩ (1 : Fin 2) * 1 ≤ (i 1).val ∧ (i 1).val < win0_3.index ⟨8 * ((i 0).val / 512) + 7, hlt⟩ (1 : Fin 2) * 1 + 1
    rw [e1]
    omega

/-- The result column after the run. -/
theorem final_column (c : Dev nD) : (dats m 0 c).arrAt 3 cfg0.N = rowTotals m c :=
  (dats m 0 c).arrAt_eq_of_cover 3 (rowTotals m c) (flushed_eq m c) cover

/-- The program's result: the column summed and divided by the batch size is the loss. -/
theorem result_eq (c : Dev nD) :
    Pipeline.afterTail₀ cfgs (dats m) 0 (V0 m) [hostOps1] c main_v3 = fun _ => loss (m ((c : Thread nD τ).loc main_arg0)) (m ((c : Thread nD τ).loc main_arg1)) (m ((c : Thread nD τ).loc main_arg2)) := by
  unfold Pipeline.afterTail₀
  show StableHlo.after hostOps1 _ (Proc.devRef .tc main_v3) = _
  after_results
  have hcol : Pipeline.withArrays (cfgs 0).spec c (V0 m c) (fun w => (dats m 0 c).arrAt w (cfgs 0).N) (Proc.devRef .tc main_v1)
      = rowTotals m c :=
    (Pipeline.withArrays_arr spec0 launch0.win.arr_inj c _ _ 3).trans (final_column m c)
  rw [hcol]
  funext i
  unfold loss
  show Ideal.div (Host.reduceAdd (F := Ideal) (rowTotals m c) (constant S_ .f32 0x00000000#32) reducesTo_S8192x1_S_d0_1 h_S_ i) _ = _
  refine congrArg₂ Ideal.div ?_ rfl
  simp only [Host.reduceAdd, Ideal.hostReduceAdd_def]
  rw [Ideal.hostReduceAdd_total reducesTo_S8192x1_S_d0_1 (fun b => b.elim0) (rowTotals m c) _ i, sum_idx2]
  refine congrArg₂ (· + ·) rfl (Finset.sum_congr rfl fun b _ => ?_)
  rw [Fin.sum_univ_one]
  rfl

/-- The run, read: the result at the loss of the argument arrays, the arguments unchanged. -/
theorem run : θ_run defs (onTc (τ := τ) (main (F := Ideal))) ⟨m, fun _ => 0, ρ⟩ fun r => ∀ c : Dev nD,
      r.2.mem ((c.tc : Thread nD τ).loc main_v3) = (fun _ => loss (m ((c : Thread nD τ).loc main_arg0)) (m ((c : Thread nD τ).loc main_arg1)) (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c =>
      ⟨((h c).2 main_v3 (Pipeline.mem_restRefs_of main_v3 (by decide) (by decide))).trans (result_eq m c),
       ((h c).1 0).trans (((dats m 0 c).arrAt_in 0 rfl _).trans ((A_eq m c 0).trans (V_main_arg0 m c))),
       ((h c).2 main_arg1 (Pipeline.mem_restRefs_of main_arg1 (by decide) (by decide))).trans (W_main_arg1 m (dats m) c),
       ((h c).1 1).trans (((dats m 0 c).arrAt_in 1 rfl _).trans ((A_eq m c 1).trans (V_main_arg2 m c)))⟩)
    (run_main m ρ)

end Cert.KernelIdeal.Final

end
-- ==== Proof.RefLoss.lean ====
/-
  The reference computes the loss of `Spec.lean`.

  Read one operation at a time, its clamped matrix has at `(b, c)` the entry `entry X L C b c`: the two squared
  norms are host sums from a zero initial value, broadcast along the other axis; the inner products are one
  matrix product against the transposed centres; the mask compares the broadcast labels with the class numbers
  `0 … 4095`. The result is the sum of all entries from a zero initial value, divided by 8192.
-/
import proofs.«142503_j3599182594972_1_alg».proof.Proof.Gen.ReferenceIdeal.Read
import proofs.«142503_j3599182594972_1_alg».proof.Proof.Spec

noncomputable section

open scoped BigOperators

namespace Cert.ReferenceIdeal.RefLoss

open Cert.ReferenceIdeal Cert.ReferenceIdeal.Read Idealize.ShloMosaic Idealize.ShloMosaic.ValueIdx CenterLoss

variable (x0 : (⟨S8192x2048, .f32⟩ : BufTy).Contents (Elt Ideal)) (x1 : (⟨S8192, .i32⟩ : BufTy).Contents (Elt Ideal))
  (x2 : (⟨S4096x2048, .f32⟩ : BufTy).Contents (Elt Ideal))

/-! The composed index maps of the layout operations, at `(b, c)`. -/

theorem idx_sample (b : Fin 8192) (c : Fin 4096) (k : Fin 2048) :
    idx_main_v1 (idx_main_v2 (idx_main_v6 (ix2 b c))) k = ix2 b k :=
  funext fun a => Fin.ext (by match a with | ⟨0, _⟩ => rfl | ⟨1, _⟩ => rfl)
theorem idx_centre (b : Fin 8192) (c : Fin 4096) (k : Fin 2048) :
    idx_main_v4 (idx_main_v5 (idx_main_v7 (ix2 b c))) k = ix2 c k :=
  funext fun a => Fin.ext (by match a with | ⟨0, _⟩ => rfl | ⟨1, _⟩ => rfl)
theorem idx_lhs (b : Fin 8192) (c : Fin 4096) (k : Fin 2048) : lidx_main_v10 (ix2 b c) k = ix2 b k :=
  funext fun a => Fin.ext (by match a with | ⟨0, _⟩ => rfl | ⟨1, _⟩ => rfl)
theorem idx_rhs (b : Fin 8192) (c : Fin 4096) (k : Fin 2048) : idx_main_v9 (ridx_main_v10 (ix2 b c) k) = ix2 c k :=
  funext fun a => Fin.ext (by match a with | ⟨0, _⟩ => rfl | ⟨1, _⟩ => rfl)
theorem idx_label (b : Fin 8192) (c : Fin 4096) : idx_main_v14 (idx_main_v17 (ix2 b c)) = ix1 b :=
  funext fun a => Fin.ext (by match a with | ⟨0, _⟩ => rfl)
theorem idx_class (b : Fin 8192) (c : Fin 4096) : ((idx_main_v16 (idx_main_v18 (ix2 b c))) 0).val = c.val := rfl

/-- The clamped matrix at `(b, c)`. -/
theorem clipped_apply (b : Fin 8192) (c : Fin 4096) :
    val_main_v22 (F := Ideal) x0 x1 x2 (ix2 b c) = entry x0 x1 x2 b c := by
  rw [val_main_v22_apply, val_main_call0_v4_apply, val_main_call0_v3_apply, val_main_cst_3_apply, val_main_call0_v2_apply,
    val_main_call0_v1_apply, val_main_call0_v0_apply, val_main_cst_2_apply, val_main_v21_apply, val_main_v13_apply,
    val_main_v8_apply, val_main_v6_apply, val_main_v2_apply, val_main_v1_apply, val_main_cst_apply, val_main_v7_apply,
    val_main_v5_apply, val_main_v4_apply, val_main_cst_0_apply, val_main_v12_apply, val_main_v11_apply, val_main_cst_1_apply,
    val_main_v10_apply, val_main_v20_apply, val_main_v19_apply, val_main_v17_apply, val_main_v14_apply, val_main_v18_apply,
    val_main_v16_apply, val_main_v15_apply]
  simp only [val_main_v0_apply, val_main_v3_apply, val_main_v9_apply, idx_sample, idx_centre, idx_lhs, idx_rhs, idx_label, idx_class]
  unfold entry cell hit
  show min _ (max _ ((Ideal.ofBits .f32 0x00000000#32 + _ + (Ideal.ofBits .f32 0x00000000#32 + _) - _ * _) * _)) = _
  rw [Ideal.ofBits_zero_f32, zero_add, zero_add]
  rfl

/-- The reference's result is the loss. -/
theorem loss_eq (i : S_.Idx) : val_main_v24 (F := Ideal) x0 x1 x2 i = loss x0 x1 x2 := by
  rw [val_main_v24_apply, val_main_v23_apply, val_main_cst_4_apply, val_main_cst_5_apply, sum_idx2]
  simp only [clipped_apply]
  rfl

end Cert.ReferenceIdeal.RefLoss

end
-- ==== Proof.lean ====
/-
  The certificate's five claims for the centre-loss kernel.

  The kernel tiles the 8192 × 4096 matrix of clamped, masked squared distances into 16 × 8 tiles of 512 × 512,
  accumulates each row tile's row sums over its eight column tiles, and the host sums the resulting column and
  divides by 8192; the reference forms the whole matrix, sums it and divides by 8192. Over the extended reals
  both are `CenterLoss.loss` of the three argument arrays (Proof/Spec.lean): the kernel's side is
  Proof/Final.lean (from the per-point values of Proof/Pieces.lean, Proof/Payload.lean, Proof/Blocks.lean,
  Proof/Tile.lean and the accumulation of Proof/Accumulate.lean), the reference's side Proof/RefLoss.lean. The
  only law used between the two is that a finite sum of extended reals may be regrouped; the precondition is
  never opened. The three frame claims are the generated frame runs; the idealization rewrote nothing.
-/
import proofs.«142503_j3599182594972_1_alg».proof.Defs
import proofs.«142503_j3599182594972_1_alg».proof.Proof.Gen.Kernel
import proofs.«142503_j3599182594972_1_alg».proof.Proof.Gen.Kernel.Frame
import proofs.«142503_j3599182594972_1_alg».proof.Proof.Gen.KernelIdeal
import proofs.«142503_j3599182594972_1_alg».proof.Proof.Gen.KernelIdeal.Frame
import proofs.«142503_j3599182594972_1_alg».proof.Proof.Gen.ReferenceIdeal
import proofs.«142503_j3599182594972_1_alg».proof.Proof.Gen.ReferenceIdeal.Run
import proofs.«142503_j3599182594972_1_alg».proof.Proof.Gen.ReferenceIdeal.Read
import proofs.«142503_j3599182594972_1_alg».proof.Proof.Gen.Pre_finite_inputs
import proofs.«142503_j3599182594972_1_alg».proof.Proof.Final
import proofs.«142503_j3599182594972_1_alg».proof.Proof.RefLoss
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end at the loss of the (agreeing) argument arrays. -/
theorem algebraic : Cert.algebraic_KernelIdeal_ReferenceIdeal := by
  intro m ρ m' ρ' _ hagree
  refine ⟨_, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2.1, (hagree c).2.2]
  funext i
  exact Cert.ReferenceIdeal.RefLoss.loss_eq _ _ _ i

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
